-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x9x128x128 : Shape := ⟨4, ![16, 9, 128, 128]⟩
abbrev S16x64x128x128 : Shape := ⟨4, ![16, 64, 128, 128]⟩
abbrev S_ : Shape := ⟨0, ![]⟩

class Facts : Prop where
  bcast_S_S16x9x128x128 : S_.BroadcastsInDim S16x9x128x128 (![] : Fin 0 → Fin S16x9x128x128.rank)
  reducesTo_S16x9x128x128_S_d0_1_2_3 : S16x9x128x128.ReducesTo [0, 1, 2, 3] S_
  h_S_ : 0 < S_.numel
  bcast_S_S16x64x128x128 : S_.BroadcastsInDim S16x64x128x128 (![] : Fin 0 → Fin S16x64x128x128.rank)
  reducesTo_S16x64x128x128_S_d0_1_2_3 : S16x64x128x128.ReducesTo [0, 1, 2, 3] S_

variable [Facts]

def fn {F : FTy → Type} [FloatOps F] (main_arg0 : FVec F S16x9x128x128 .f32) (main_arg1 : FVec F S16x64x128x128 .f32) : IVec S_ 1 :=
  let main_v0 : FVec F S16x9x128x128 .f32 := Host.absf main_arg0
  let main_cst : FVec F S_ .f32 := constant S_ .f32 0x7F800000#32
  let main_v1 : FVec F S16x9x128x128 .f32 := broadcastInDim S16x9x128x128 ![] bcast_S_S16x9x128x128 main_cst
  let main_v2 : IVec S16x9x128x128 1 := cmpf .olt main_v0 main_v1
  let main_c : IVec S_ 1 := constantI S_ 1 1#1
  let main_v3 : IVec S_ 1 := (fun x v => Host.reduce IntOp.andi x v reducesTo_S16x9x128x128_S_d0_1_2_3 h_S_) main_v2 main_c
  let main_v4 : FVec F S16x64x128x128 .f32 := Host.absf main_arg1
  let main_cst_0 : FVec F S_ .f32 := constant S_ .f32 0x7F800000#32
  let main_v5 : FVec F S16x64x128x128 .f32 := broadcastInDim S16x64x128x128 ![] bcast_S_S16x64x128x128 main_cst_0
  let main_v6 : IVec S16x64x128x128 1 := cmpf .olt main_v4 main_v5
  let main_c_1 : IVec S_ 1 := constantI S_ 1 1#1
  let main_v7 : IVec S_ 1 := (fun x v => Host.reduce IntOp.andi x v reducesTo_S16x64x128x128_S_d0_1_2_3 h_S_) main_v6 main_c_1
  let main_v8 : IVec S_ 1 := andi main_v3 main_v7
  main_v8
-- ==== Kernel.lean ====
abbrev S16x9x128x128 : Shape := ⟨4, ![16, 9, 128, 128]⟩
abbrev S16x64x128x128 : Shape := ⟨4, ![16, 64, 128, 128]⟩
abbrev S1x9x128x128 : Shape := ⟨4, ![1, 9, 128, 128]⟩
abbrev S1x64x128x128 : Shape := ⟨4, ![1, 64, 128, 128]⟩
abbrev S128x1 : Shape := ⟨2, ![128, 1]⟩
abbrev S1x128 : Shape := ⟨2, ![1, 128]⟩
abbrev S9x128x128 : Shape := ⟨3, ![9, 128, 128]⟩
abbrev S1x128x128 : Shape := ⟨3, ![1, 128, 128]⟩
abbrev S1x128x1 : Shape := ⟨3, ![1, 128, 1]⟩
abbrev S1x1x128 : Shape := ⟨3, ![1, 1, 128]⟩
abbrev S1x16x128x128 : Shape := ⟨4, ![1, 16, 128, 128]⟩
abbrev S16x128x128 : Shape := ⟨3, ![16, 128, 128]⟩

abbrev nBuf : Space → Nat
  | .hbm => 3
  | .vmem => 6
  | .smem => 0
  | _ => 0

abbrev bufTy : (tb : Table) → Fin (tcTables nBuf tb) → BufTy
  | .hbm, ⟨0, _⟩ => ⟨S16x9x128x128, .f32⟩
  | .hbm, ⟨1, _⟩ => ⟨S16x64x128x128, .f32⟩
  | .hbm, ⟨2, _⟩ => ⟨S16x64x128x128, .f32⟩
  | .local _ .vmem, ⟨0, _⟩ => ⟨S1x9x128x128, .f32⟩
  | .local _ .vmem, ⟨1, _⟩ => ⟨S1x9x128x128, .f32⟩
  | .local _ .vmem, ⟨2, _⟩ => ⟨S1x64x128x128, .f32⟩
  | .local _ .vmem, ⟨3, _⟩ => ⟨S1x64x128x128, .f32⟩
  | .local _ .vmem, ⟨4, _⟩ => ⟨S1x64x128x128, .f32⟩
  | .local _ .vmem, ⟨5, _⟩ => ⟨S1x64x128x128, .f32⟩
  | _, _ => ⟨S16x9x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_5 : BitVec 32 := 0#32
  let c4_i32 : BitVec 32 := 4#32
  let v65 : BitVec 32 := Scalar.addi c0_i32_5 c4_i32
  let c1_i32 : BitVec 32 := 1#32
  ⟨c0_i32_5, v65, c1_i32⟩
def k0_mult1 (k0_t1 : Fin k0_t1_loop.trips) : BitVec 32 :=
  let c0_i32_8 : BitVec 32 := 0#32
  let c0_i32_5 : BitVec 32 := 0#32
  let c1_i32 : BitVec 32 := 1#32
  let arg4 : BitVec 32 := Scf.iv c0_i32_5 c1_i32 k0_t1
  let c1_i32_7 : BitVec 32 := 1#32
  let v66 : BitVec 32 := Scalar.muli arg4 c1_i32_7
  let v67 : BitVec 32 := Scalar.addi c0_i32_8 v66
  let c16_i32 : BitVec 32 := 16#32
  let v68 : BitVec 32 := Scalar.muli v67 c16_i32
  v68
def k0_off1 (k0_t1 : Fin k0_t1_loop.trips) : Fin 4 → Nat :=
  let c0_9 : Index := 0#32
  let c0_i32_8 : BitVec 32 := 0#32
  let c0_i32_5 : BitVec 32 := 0#32
  let c1_i32 : BitVec 32 := 1#32
  let arg4 : BitVec 32 := Scf.iv c0_i32_5 c1_i32 k0_t1
  let c1_i32_7 : BitVec 32 := 1#32
  let v66 : BitVec 32 := Scalar.muli arg4 c1_i32_7
  let v67 : BitVec 32 := Scalar.addi c0_i32_8 v66
  let c16_i32 : BitVec 32 := 16#32
  let v68 : BitVec 32 := Scalar.muli v67 c16_i32
  let v69 : BitVec 32 := v68
  let v70 : Index := Scalar.indexCast v69
  let c0_10 : Index := 0#32
  let c0_11 : Index := 0#32
  ![0, v70.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x9x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  iota_S128x1_d0_w32 : S128x1.Iotas .tc 32 [0]
  iota_S1x128_d1_w32 : S1x128.Iotas .tc 32 [1]
  natLt_1_32 : 1 < 32
  inb_S1x9x128x128_S1x9x128x128_0_0_0_0 : ∀ a, (![0, 0, 0, 0] : Fin 4 → Nat) a + S1x9x128x128.size a ≤ S1x9x128x128.size a
  h_S1x9x128x128 : 0 < S1x9x128x128.numel
  shapeCasts_S1x9x128x128_S9x128x128 : S1x9x128x128.ShapeCasts S9x128x128
  slices_S9x128x128_o0_0_0_S1x128x128 : S9x128x128.Slices ![0, 0, 0] S1x128x128
  shapeCasts_S128x1_S1x128x1 : S128x1.ShapeCasts S1x128x1
  broadcasts_S1x128x1_S1x128x128 : S1x128x1.Broadcasts S1x128x128
  shapeCasts_S1x128_S1x1x128 : S1x128.ShapeCasts S1x1x128
  broadcasts_S1x1x128_S1x128x128 : S1x1x128.Broadcasts S1x128x128
  slices_S9x128x128_o1_0_0_S1x128x128 : S9x128x128.Slices ![1, 0, 0] S1x128x128
  slices_S9x128x128_o2_0_0_S1x128x128 : S9x128x128.Slices ![2, 0, 0] S1x128x128
  slices_S9x128x128_o3_0_0_S1x128x128 : S9x128x128.Slices ![3, 0, 0] S1x128x128
  slices_S9x128x128_o4_0_0_S1x128x128 : S9x128x128.Slices ![4, 0, 0] S1x128x128
  slices_S9x128x128_o5_0_0_S1x128x128 : S9x128x128.Slices ![5, 0, 0] S1x128x128
  slices_S9x128x128_o6_0_0_S1x128x128 : S9x128x128.Slices ![6, 0, 0] S1x128x128
  slices_S9x128x128_o7_0_0_S1x128x128 : S9x128x128.Slices ![7, 0, 0] S1x128x128
  slices_S9x128x128_o8_0_0_S1x128x128 : S9x128x128.Slices ![8, 0, 0] S1x128x128
  h_S1x16x128x128 : 0 < S1x16x128x128.numel
  shapeCasts_S1x16x128x128_S16x128x128 : S1x16x128x128.ShapeCasts S16x128x128
  rotates_S16x128x128_d1 : S16x128x128.Rotates 1 none
  rotates_S16x128x128_d2 : S16x128x128.Rotates 2 none
  broadcasts_S1x128x128_S16x128x128 : S1x128x128.Broadcasts S16x128x128
  shapeCasts_S16x128x128_S1x16x128x128 : S16x128x128.ShapeCasts S1x16x128x128
  hrank0 : 0 < grid0.rank
  k0_t1_ok : k0_t1_loop.OK
  k0_mult1_dvd : ∀ k0_t1 : Fin k0_t1_loop.trips, 16 ∣ (k0_mult1 k0_t1).toNat
  k0_off1_inb : ∀ k0_t1 : Fin k0_t1_loop.trips, ∀ a, (k0_off1 k0_t1) a + S1x16x128x128.size a ≤ S1x64x128x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x9x128x128.size a ≤ S16x9x128x128.size a
  hwx0_0 : ∀ i : grid0.Coords, EltTy.bits .f32 = 32 ∨ (Rect.block (s := S16x9x128x128) S1x9x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x128x128.size a ≤ S16x64x128x128.size a
  hwx0_1 : ∀ i : grid0.Coords, EltTy.bits .f32 = 32 ∨ (Rect.block (s := S16x64x128x128) S1x64x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x128x128.size a ≤ S16x64x128x128.size a
  hwx0_2 : ∀ i : grid0.Coords, EltTy.bits .f32 = 32 ∨ (Rect.block (s := S16x64x128x128) S1x64x128x128.size (cc0_transform_2 i) (hinb0_2 i)).WholeWords (EltTy.packing .f32)

variable [Facts₀]

abbrev win0_0 : Pipeline.Window sig grid0 :=
  Pipeline.Window.ofSpec (Memref.whole main_arg0) S1x9x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x9x128x128 : Shape := ⟨4, ![16, 9, 128, 128]⟩
abbrev S16x64x128x128 : Shape := ⟨4, ![16, 64, 128, 128]⟩
abbrev S_ : Shape := ⟨0, ![]⟩
abbrev S16x64x130x130 : Shape := ⟨4, ![16, 64, 130, 130]⟩
abbrev S16x1x128x128 : Shape := ⟨4, ![16, 1, 128, 128]⟩

abbrev nBuf : Space → Nat
  | .hbm => 52
  | .vmem => 0
  | .smem => 0
  | _ => 0

abbrev bufTy : (tb : Table) → Fin (tcTables nBuf tb) → BufTy
  | .hbm, ⟨0, _⟩ => ⟨S16x9x128x128, .f32⟩
  | .hbm, ⟨1, _⟩ => ⟨S16x64x128x128, .f32⟩
  | .hbm, ⟨2, _⟩ => ⟨S_, .i32⟩
  | .hbm, ⟨3, _⟩ => ⟨S_, .f32⟩
  | .hbm, ⟨4, _⟩ => ⟨S16x64x130x130, .f32⟩
  | .hbm, ⟨5, _⟩ => ⟨S_, .f32⟩
  | .hbm, ⟨6, _⟩ => ⟨S16x64x128x128, .f32⟩
  | .hbm, ⟨7, _⟩ => ⟨S16x1x128x128, .f32⟩
  | .hbm, ⟨8, _⟩ => ⟨S16x64x128x128, .f32⟩
  | .hbm, ⟨9, _⟩ => ⟨S16x64x128x128, .f32⟩
  | .hbm, ⟨10, _⟩ => ⟨S16x64x128x128, .f32⟩
  | .hbm, ⟨11, _⟩ => ⟨S16x64x128x128, .f32⟩
  | .hbm, ⟨12, _⟩ => ⟨S16x1x128x128, .f32⟩
  | .hbm, ⟨13, _⟩ => ⟨S16x64x128x128, .f32⟩
  | .hbm, ⟨14, _⟩ => ⟨S16x64x128x128, .f32⟩
  | .hbm, ⟨15, _⟩ => ⟨S16x64x128x128, .f32⟩
  | .hbm, ⟨16, _⟩ => ⟨S16x64x128x128, .f32⟩
  | .hbm, ⟨17, _⟩ => ⟨S16x1x128x128, .f32⟩
  | .hbm, ⟨18, _⟩ => ⟨S16x64x128x128, .f32⟩
  | .hbm, ⟨19, _⟩ => ⟨S16x64x128x128, .f32⟩
  | .hbm, ⟨20, _⟩ => ⟨S16x64x128x128, .f32⟩
  | .hbm, ⟨21, _⟩ => ⟨S16x64x128x128, .f32⟩
  | .hbm, ⟨22, _⟩ => ⟨S16x1x128x128, .f32⟩
  | .hbm, ⟨23, _⟩ => ⟨S16x64x128x128, .f32⟩
  | .hbm, ⟨24, _⟩ => ⟨S16x64x128x128, .f32⟩
  | .hbm, ⟨25, _⟩ => ⟨S16x64x128x128, .f32⟩
  | .hbm, ⟨26, _⟩ => ⟨S16x64x128x128, .f32⟩
  | .hbm, ⟨27, _⟩ => ⟨S16x1x128x128, .f32⟩
  | .hbm, ⟨28, _⟩ => ⟨S16x64x128x128, .f32⟩
  | .hbm, ⟨29, _⟩ => ⟨S16x64x128x128, .f32⟩
  | .hbm, ⟨30, _⟩ => ⟨S16x64x128x128, .f32⟩
  | .hbm, ⟨31, _⟩ => ⟨S16x64x128x128, .f32⟩
  | .hbm, ⟨32, _⟩ => ⟨S16x1x128x128, .f32⟩
  | .hbm, ⟨33, _⟩ => ⟨S16x64x128x128, .f32⟩
  | .hbm, ⟨34, _⟩ => ⟨S16x64x128x128, .f32⟩
  | .hbm, ⟨35, _⟩ => ⟨S16x64x128x128, .f32⟩
  | .hbm, ⟨36, _⟩ => ⟨S16x64x128x128, .f32⟩
  | .hbm, ⟨37, _⟩ => ⟨S16x1x128x128, .f32⟩
  | .hbm, ⟨38, _⟩ => ⟨S16x64x128x128, .f32⟩
  | .hbm, ⟨39, _⟩ => ⟨S16x64x128x128, .f32⟩
  | .hbm, ⟨40, _⟩ => ⟨S16x64x128x128, .f32⟩
  | .hbm, ⟨41, _⟩ => ⟨S16x64x128x128, .f32⟩
  | .hbm, ⟨42, _⟩ => ⟨S16x1x128x128, .f32⟩
  | .hbm, ⟨43, _⟩ => ⟨S16x64x128x128, .f32⟩
  | .hbm, ⟨44, _⟩ => ⟨S16x64x128x128, .f32⟩
  | .hbm, ⟨45, _⟩ => ⟨S16x64x128x128, .f32⟩
  | .hbm, ⟨46, _⟩ => ⟨S16x64x128x128, .f32⟩
  | .hbm, ⟨47, _⟩ => ⟨S16x1x128x128, .f32⟩
  | .hbm, ⟨48, _⟩ => ⟨S16x64x128x128, .f32⟩
  | .hbm, ⟨49, _⟩ => ⟨S16x64x128x128, .f32⟩
  | .hbm, ⟨50, _⟩ => ⟨S16x64x128x128, .f32⟩
  | .hbm, ⟨51, _⟩ => ⟨S16x64x128x128, .f32⟩
  | _, _ => ⟨S16x9x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩

abbrev nD : Nat := 1
abbrev τ : Topo := Topo.v7x

variable {F : FTy → Type} [FloatOps F]

class Facts₀ : Prop where
  pads_S16x64x128x128_S16x64x130x130_000_000_110_110 : S16x64x128x128.Pads (![0, 0, 1, 1] : Fin 4 → Nat) ![0, 0, 1, 1] ![0, 0, 0, 0] S16x64x130x130
  h_S_ : 0 < S_.numel
  bcast_S_S16x64x128x128 : S_.BroadcastsInDim S16x64x128x128 (![] : Fin 0 → Fin S16x64x128x128.rank)
  slices_S16x9x128x128_S16x1x128x128_0_0_0_0 : S16x9x128x128.Slices ![0, 0, 0, 0] S16x1x128x128
  slices_S16x64x130x130_S16x64x128x128_0_0_0_0 : S16x64x130x130.Slices ![0, 0, 0, 0] S16x64x128x128
  bcast_S16x1x128x128_S16x64x128x128_0_1_2_3 : S16x1x128x128.BroadcastsInDim S16x64x128x128 (![0, 1, 2, 3] : Fin 4 → Fin S16x64x128x128.rank)
  slices_S16x9x128x128_S16x1x128x128_0_1_0_0 : S16x9x128x128.Slices ![0, 1, 0, 0] S16x1x128x128
  slices_S16x64x130x130_S16x64x128x128_0_0_0_1 : S16x64x130x130.Slices ![0, 0, 0, 1] S16x64x128x128
  slices_S16x9x128x128_S16x1x128x128_0_2_0_0 : S16x9x128x128.Slices ![0, 2, 0, 0] S16x1x128x128
  slices_S16x64x130x130_S16x64x128x128_0_0_0_2 : S16x64x130x130.Slices ![0, 0, 0, 2] S16x64x128x128
  slices_S16x9x128x128_S16x1x128x128_0_3_0_0 : S16x9x128x128.Slices ![0, 3, 0, 0] S16x1x128x128
  slices_S16x64x130x130_S16x64x128x128_0_0_1_0 : S16x64x130x130.Slices ![0, 0, 1, 0] S16x64x128x128
  slices_S16x9x128x128_S16x1x128x128_0_4_0_0 : S16x9x128x128.Slices ![0, 4, 0, 0] S16x1x128x128
  slices_S16x64x130x130_S16x64x128x128_0_0_1_1 : S16x64x130x130.Slices ![0, 0, 1, 1] S16x64x128x128
  slices_S16x9x128x128_S16x1x128x128_0_5_0_0 : S16x9x128x128.Slices ![0, 5, 0, 0] S16x1x128x128
  slices_S16x64x130x130_S16x64x128x128_0_0_1_2 : S16x64x130x130.Slices ![0, 0, 1, 2] S16x64x128x128
  slices_S16x9x128x128_S16x1x128x128_0_6_0_0 : S16x9x128x128.Slices ![0, 6, 0, 0] S16x1x128x128
  slices_S16x64x130x130_S16x64x128x128_0_0_2_0 : S16x64x130x130.Slices ![0, 0, 2, 0] S16x64x128x128
  slices_S16x9x128x128_S16x1x128x128_0_7_0_0 : S16x9x128x128.Slices ![0, 7, 0, 0] S16x1x128x128
  slices_S16x64x130x130_S16x64x128x128_0_0_2_1 : S16x64x130x130.Slices ![0, 0, 2, 1] S16x64x128x128
  slices_S16x9x128x128_S16x1x128x128_0_8_0_0 : S16x9x128x128.Slices ![0, 8, 0, 0] S16x1x128x128
  slices_S16x64x130x130_S16x64x128x128_0_0_2_2 : S16x64x130x130.Slices ![0, 0, 2, 2] S16x64x128x128

variable [Facts₀]

class Facts : Prop extends Facts₀ where

variable [Facts]
-- ==== Proof.Spec.lean ====
/-
  The windowed aggregation as one function of its two arguments, index by index, on the extended reals.

  For a 128 x 128 plane `v` and nine weight planes `d 0 … d 8`, the value at row `y`, column `x` is
  `∑_{i,j < 3} d (3 i + j) y x · v̄ (y + i − 1) (x + j − 1)`, where `v̄` is `v` continued by zero outside the
  plane, the nine terms added from zero in the order of `3 i + j` (`win`). `tap v y x i j` is the factor
  `v̄ (y + i − 1) (x + j − 1)`.

  A term can also be written with the plane read AROUND the edge and the weight multiplied by a mask that is 1
  where row `y + i − 1` (column `x + j − 1`) exists and 0 where it does not: on the extended reals
  `d · 1 = d` and `d · 0 = 0 = 0 · w` for every `d` and `w`, infinite ones too, so the two forms agree
  whatever the plane holds at the wrapped position (`term_rc` and its three special cases).
-/
import Idealize.ShloMosaic.PureOps.Ideal
import Idealize.ShloMosaic.Lib.ValueIdx

noncomputable section

namespace Cert.Window

open Idealize.ShloMosaic

/-- Row (or column) `y + i − 1` lies in the plane. -/
abbrev inside (y : Fin 128) (i : ℕ) : Prop := 1 ≤ y.val + i ∧ y.val + i ≤ 128

/-- The plane continued by zero, read at row `y + i − 1`, column `x + j − 1`. -/
def tap (v : Fin 128 → Fin 128 → EReal) (y x : Fin 128) (i j : ℕ) : EReal :=
  if h : inside y i ∧ inside x j then
    v ⟨y.val + i - 1, by have := h.1.1; have := h.1.2; omega⟩ ⟨x.val + j - 1, by have := h.2.1; have := h.2.2; omega⟩
  else 0

/-- The nine weighted taps added from zero, in row-major order of the 3 x 3 window. -/
def win (d : Fin 9 → Fin 128 → Fin 128 → EReal) (v : Fin 128 → Fin 128 → EReal) (y x : Fin 128) : EReal :=
  0 + d 0 y x * tap v y x 0 0 + d 1 y x * tap v y x 0 1 + d 2 y x * tap v y x 0 2
    + d 3 y x * tap v y x 1 0 + d 4 y x * tap v y x 1 1 + d 5 y x * tap v y x 1 2
    + d 6 y x * tap v y x 2 0 + d 7 y x * tap v y x 2 1 + d 8 y x * tap v y x 2 2

theorem tap_of_inside {v : Fin 128 → Fin 128 → EReal} {y x : Fin 128} {i j : ℕ} (h : inside y i ∧ inside x j)
    (y' x' : Fin 128) (hy : y'.val = y.val + i - 1) (hx : x'.val = x.val + j - 1) : tap v y x i j = v y' x' := by
  unfold tap
  rw [dif_pos h]
  exact congrArg₂ v (Fin.ext hy.symm) (Fin.ext hx.symm)

theorem tap_of_not_inside {v : Fin 128 → Fin 128 → EReal} {y x : Fin 128} {i j : ℕ} (h : ¬(inside y i ∧ inside x j)) :
    tap v y x i j = 0 := dif_neg h

/-- 1 where row `y + i − 1` exists, 0 where it does not. -/
def mask (y : Fin 128) (i : ℕ) : EReal := if inside y i then 1 else 0

theorem mask_one (y : Fin 128) : mask y 1 = 1 := by
  unfold mask
  rw [if_pos]
  have := y.isLt
  exact ⟨by omega, by omega⟩

/-- A weight masked on both axes times the plane read at ANY position that is the tap's own when the tap is inside. -/
theorem term_rc (d : EReal) (v : Fin 128 → Fin 128 → EReal) (y x : Fin 128) (i j : ℕ) (y' x' : Fin 128)
    (hy : inside y i → y'.val = y.val + i - 1) (hx : inside x j → x'.val = x.val + j - 1) :
    d * mask y i * mask x j * v y' x' = d * tap v y x i j := by
  unfold mask
  by_cases h1 : inside y i
  · by_cases h2 : inside x j
    · rw [if_pos h1, if_pos h2, mul_one, mul_one, tap_of_inside ⟨h1, h2⟩ y' x' (hy h1) (hx h2)]
    · rw [if_neg h2, tap_of_not_inside (fun h => h2 h.2)]
      simp only [mul_zero, zero_mul]
  · rw [if_neg h1, tap_of_not_inside (fun h => h1 h.1)]
    simp only [mul_zero, zero_mul]

/-- The middle column: no column mask. -/
theorem term_r (d : EReal) (v : Fin 128 → Fin 128 → EReal) (y x : Fin 128) (i : ℕ) (y' : Fin 128)
    (hy : inside y i → y'.val = y.val + i - 1) : d * mask y i * v y' x = d * tap v y x i 1 := by
  have h := term_rc d v y x i 1 y' x hy (fun _ => by omega)
  rwa [mask_one, mul_one] at h

/-- The middle row: no row mask. -/
theorem term_c (d : EReal) (v : Fin 128 → Fin 128 → EReal) (y x : Fin 128) (j : ℕ) (x' : Fin 128)
    (hx : inside x j → x'.val = x.val + j - 1) : d * mask x j * v y x' = d * tap v y x 1 j := by
  have h := term_rc d v y x 1 j y x' (fun _ => by omega) hx
  rwa [mask_one, mul_one] at h

/-- The centre: no mask. -/
theorem term_0 (d : EReal) (v : Fin 128 → Fin 128 → EReal) (y x : Fin 128) : d * v y x = d * tap v y x 1 1 := by
  have h := term_r d v y x 1 y (fun _ => by omega)
  rwa [mask_one, mul_one] at h

end Cert.Window

end
-- ==== Proof.KernLayout.lean ====
/-
  The kernel's layout operations read at an index, over its literal shapes: a column [128,1] or a row [1,128] laid over a
  [1,128,128] plane, one plane of a [9,128,128] stack, a plane laid over sixteen channels, the casts that drop or add
  the block's leading unit axis, and a rotation by one along the rows or the columns of a [16,128,128] chunk, which
  reads the previous (shift 1) or the next (shift 127) row or column, around the edge.
-/
import proofs.«176277_j89773406421553_2_alg».proof.KernelIdeal
import Idealize.ShloMosaic.Lib.Pipeline.Value
import Idealize.ShloMosaic.Lib.ValueIdx
import Idealize.ShloMosaic.Lib.KernelVsHost

noncomputable section

namespace Cert.Window.Kern

open Idealize.ShloMosaic Idealize.ShloMosaic.ValueIdx Cert.KernelIdeal

variable {α : Type}

/-- The row before `y`, around the edge. -/
def prev (y : Fin 128) : Fin 128 := ⟨(y.val + 127) % 128, Nat.mod_lt _ (by decide)⟩
/-- The row after `y`, around the edge. -/
def next (y : Fin 128) : Fin 128 := ⟨(y.val + 1) % 128, Nat.mod_lt _ (by decide)⟩

theorem prev_val (y : Fin 128) : (prev y).val = (y.val + 127) % 128 := rfl
theorem next_val (y : Fin 128) : (next y).val = (y.val + 1) % 128 := rfl

/-- A column laid over the plane reads its row. -/
theorem col_read (r : S128x1.Idx → α) (h1 : S128x1.ShapeCasts S1x128x1) (h2 : S1x128x1.Broadcasts S1x128x128) (y x : Fin 128) :
    broadcastTo S1x128x128 (shapeCast S1x128x1 r h1) h2 (ix3 (0 : Fin 1) y x) = r (ix2 y (0 : Fin 1)) := by
  refine (broadcastTo_apply _ h2 _ (ix3 (0 : Fin 1) y (0 : Fin 1)) (fun a => ?_)).trans ?_
  · match a with
    | ⟨0, _⟩ => show (0 : ℕ) = if (1 : ℕ) = 1 then 0 else 0; rw [if_pos rfl]
    | ⟨1, _⟩ => show y.val = if (128 : ℕ) = 1 then 0 else y.val; rw [if_neg (by decide)]
    | ⟨2, _⟩ => show (0 : ℕ) = if (1 : ℕ) = 1 then 0 else x.val; rw [if_pos rfl]
  · refine shapeCast_apply r h1 _ (ix2 y (0 : Fin 1)) ?_
    rw [Shape.rowMajor_val_two, Shape.rowMajor_val_three]
    show y.val * 1 + 0 = (0 * 128 + y.val) * 1 + 0
    omega

/-- A row laid over the plane reads its column. -/
theorem row_read (r : S1x128.Idx → α) (h1 : S1x128.ShapeCasts S1x1x128) (h2 : S1x1x128.Broadcasts S1x128x128) (y x : Fin 128) :
    broadcastTo S1x128x128 (shapeCast S1x1x128 r h1) h2 (ix3 (0 : Fin 1) y x) = r (ix2 (0 : Fin 1) x) := by
  refine (broadcastTo_apply _ h2 _ (ix3 (0 : Fin 1) (0 : Fin 1) x) (fun a => ?_)).trans ?_
  · match a with
    | ⟨0, _⟩ => show (0 : ℕ) = if (1 : ℕ) = 1 then 0 else 0; rw [if_pos rfl]
    | ⟨1, _⟩ => show (0 : ℕ) = if (1 : ℕ) = 1 then 0 else y.val; rw [if_pos rfl]
    | ⟨2, _⟩ => show x.val = if (128 : ℕ) = 1 then 0 else x.val; rw [if_neg (by decide)]
  · refine shapeCast_apply r h1 _ (ix2 (0 : Fin 1) x) ?_
    rw [Shape.rowMajor_val_two, Shape.rowMajor_val_three]
    show 0 * 128 + x.val = (0 * 1 + 0) * 128 + x.val
    omega

/-- Plane `k` of the stack. -/
theorem plane_read (k : ℕ) (hk : k < 9) (v : S9x128x128.Idx → α) (h : S9x128x128.Slices ![k, 0, 0] S1x128x128) (y x : Fin 128) :
    extractStridedSlice S1x128x128 ![k, 0, 0] v h (ix3 (0 : Fin 1) y x) = v (ix3 (⟨k, hk⟩ : Fin 9) y x) := by
  refine extractStridedSlice_apply _ v h _ _ (fun a => ?_)
  match a with
  | ⟨0, _⟩ => show k = k + 0; omega
  | ⟨1, _⟩ => show y.val = 0 + y.val; omega
  | ⟨2, _⟩ => show x.val = 0 + x.val; omega

/-- The block of nine planes with its unit axis dropped. -/
theorem stack_read (v : S1x9x128x128.Idx → α) (h : S1x9x128x128.ShapeCasts S9x128x128) (k : Fin 9) (y x : Fin 128) :
    shapeCast S9x128x128 v h (ix3 k y x) = v (ix4 (0 : Fin 1) k y x) := by
  refine shapeCast_apply v h _ _ ?_
  rw [Shape.rowMajor_val_three, Shape.rowMajor_val_four]
  show (((0 * 9 + k.val) * 128 + y.val) * 128 + x.val) = ((k.val * 128 + y.val) * 128 + x.val)
  omega

/-- A plane laid over the sixteen channels of a chunk. -/
theorem chan_read (p : S1x128x128.Idx → α) (h : S1x128x128.Broadcasts S16x128x128) (c : Fin 16) (y x : Fin 128) :
    broadcastTo S16x128x128 p h (ix3 c y x) = p (ix3 (0 : Fin 1) y x) := by
  refine broadcastTo_apply p h _ _ (fun a => ?_)
  match a with
  | ⟨0, _⟩ => show (0 : ℕ) = if (1 : ℕ) = 1 then 0 else c.val; rw [if_pos rfl]
  | ⟨1, _⟩ => show y.val = if (128 : ℕ) = 1 then 0 else y.val; rw [if_neg (by decide)]
  | ⟨2, _⟩ => show x.val = if (128 : ℕ) = 1 then 0 else x.val; rw [if_neg (by decide)]

/-- The loaded chunk with its unit axis dropped. -/
theorem chunk_read (v : S1x16x128x128.Idx → α) (h : S1x16x128x128.ShapeCasts S16x128x128) (c : Fin 16) (y x : Fin 128) :
    shapeCast S16x128x128 v h (ix3 c y x) = v (ix4 (0 : Fin 1) c y x) := by
  refine shapeCast_apply v h _ _ ?_
  rw [Shape.rowMajor_val_three, Shape.rowMajor_val_four]
  show (((0 * 16 + c.val) * 128 + y.val) * 128 + x.val) = ((c.val * 128 + y.val) * 128 + x.val)
  omega

/-- The stored chunk with the unit axis added. -/
theorem store_read (v : S16x128x128.Idx → α) (h : S16x128x128.ShapeCasts S1x16x128x128) (c : Fin 16) (y x : Fin 128) :
    shapeCast S1x16x128x128 v h (ix4 (0 : Fin 1) c y x) = v (ix3 c y x) := by
  refine shapeCast_apply v h _ _ ?_
  rw [Shape.rowMajor_val_three, Shape.rowMajor_val_four]
  show ((c.val * 128 + y.val) * 128 + x.val) = (((0 * 16 + c.val) * 128 + y.val) * 128 + x.val)
  omega

/-- A rotation by one along the rows reads the previous row. -/
theorem rotRow_prev (v : S16x128x128.Idx → α) (h : S16x128x128.Rotates 1 none) (c : Fin 16) (y x : Fin 128) :
    dynamicRotate 1 1#32 none v h (ix3 c y x) = v (ix3 c (prev y) x) := by
  refine dynamicRotate_apply 1 1#32 v h _ _ (fun b => ?_)
  match b with
  | ⟨0, _⟩ => show c.val = if (0 : Fin 3) = 1 then _ else c.val; rw [if_neg (by decide)]
  | ⟨1, _⟩ =>
    show (prev y).val = if (1 : Fin 3) = 1 then (y.val + 128 - (1#32 : BitVec 32).toNat % 128) % 128 else y.val
    rw [if_pos rfl, prev_val]; rfl
  | ⟨2, _⟩ => show x.val = if (2 : Fin 3) = 1 then _ else x.val; rw [if_neg (by decide)]

/-- A rotation by 127 along the rows reads the next row. -/
theorem rotRow_next (v : S16x128x128.Idx → α) (h : S16x128x128.Rotates 1 none) (c : Fin 16) (y x : Fin 128) :
    dynamicRotate 1 127#32 none v h (ix3 c y x) = v (ix3 c (next y) x) := by
  refine dynamicRotate_apply 1 127#32 v h _ _ (fun b => ?_)
  match b with
  | ⟨0, _⟩ => show c.val = if (0 : Fin 3) = 1 then _ else c.val; rw [if_neg (by decide)]
  | ⟨1, _⟩ =>
    show (next y).val = if (1 : Fin 3) = 1 then (y.val + 128 - (127#32 : BitVec 32).toNat % 128) % 128 else y.val
    rw [if_pos rfl, next_val]; rfl
  | ⟨2, _⟩ => show x.val = if (2 : Fin 3) = 1 then _ else x.val; rw [if_neg (by decide)]

/-- A rotation by one along the columns reads the previous column. -/
theorem rotCol_prev (v : S16x128x128.Idx → α) (h : S16x128x128.Rotates 2 none) (c : Fin 16) (y x : Fin 128) :
    dynamicRotate 2 1#32 none v h (ix3 c y x) = v (ix3 c y (prev x)) := by
  refine dynamicRotate_apply 2 1#32 v h _ _ (fun b => ?_)
  match b with
  | ⟨0, _⟩ => show c.val = if (0 : Fin 3) = 2 then _ else c.val; rw [if_neg (by decide)]
  | ⟨1, _⟩ => show y.val = if (1 : Fin 3) = 2 then _ else y.val; rw [if_neg (by decide)]
  | ⟨2, _⟩ =>
    show (prev x).val = if (2 : Fin 3) = 2 then (x.val + 128 - (1#32 : BitVec 32).toNat % 128) % 128 else x.val
    rw [if_pos rfl, prev_val]; rfl

/-- A rotation by 127 along the columns reads the next column. -/
theorem rotCol_next (v : S16x128x128.Idx → α) (h : S16x128x128.Rotates 2 none) (c : Fin 16) (y x : Fin 128) :
    dynamicRotate 2 127#32 none v h (ix3 c y x) = v (ix3 c y (next x)) := by
  refine dynamicRotate_apply 2 127#32 v h _ _ (fun b => ?_)
  match b with
  | ⟨0, _⟩ => show c.val = if (0 : Fin 3) = 2 then _ else c.val; rw [if_neg (by decide)]
  | ⟨1, _⟩ => show y.val = if (1 : Fin 3) = 2 then _ else y.val; rw [if_neg (by decide)]
  | ⟨2, _⟩ =>
    show (next x).val = if (2 : Fin 3) = 2 then (x.val + 128 - (127#32 : BitVec 32).toNat % 128) % 128 else x.val
    rw [if_pos rfl, next_val]; rfl

end Cert.Window.Kern

end
-- ==== Proof.KernPlanes.lean ====
/-
  The kernel's masks and masked weight planes at the extended reals. A mask is a comparison of a row (column) number
  with 0 or 127, widened to a word and converted: the real 1 where the numbers differ and 0 where they agree, that is,
  1 exactly where the row above (below) — the column to the left (right) — exists. Each of the nine weight planes is the
  block's plane times the masks of the rows and columns its tap would leave the plane by.
-/
import proofs.«176277_j89773406421553_2_alg».proof.Proof.Spec
import proofs.«176277_j89773406421553_2_alg».proof.Proof.KernLayout
import proofs.«176277_j89773406421553_2_alg».proof.Proof.Gen.KernelIdeal.Skeleton

noncomputable section

namespace Cert.Window.Kern

open Idealize.ShloMosaic Idealize.ShloMosaic.ValueIdx Cert.KernelIdeal Cert.KernelIdeal.Gen Cert.Window

/-- "Not equal" of two small numbers as words, converted, is 0 or 1. -/
theorem word_ne (n c : ℕ) (hn : n < 128) (hc : c < 128) :
    ((((IntOp.cmpi .ne (BitVec.ofNat 32 n) (BitVec.ofNat 32 c)).toNat : ℝ)) : EReal) = if n = c then 0 else 1 := by
  unfold IntOp.cmpi
  by_cases h : n = c
  · subst h; simp
  · have hne : BitVec.ofNat 32 n ≠ BitVec.ofNat 32 c := by
      intro e
      have e' := congrArg BitVec.toNat e
      rw [BitVec.toNat_ofNat, BitVec.toNat_ofNat, Nat.mod_eq_of_lt (by omega), Nat.mod_eq_of_lt (by omega)] at e'
      exact h e'
    rw [if_neg h]
    simp [hne]

theorem mask_first (y : Fin 128) : (if y.val = 0 then (0 : EReal) else 1) = mask y 0 := by
  unfold mask
  by_cases h : y.val = 0
  · rw [if_pos h, if_neg]; intro hh; have := hh.1; omega
  · rw [if_neg h, if_pos]; have := y.isLt; exact ⟨by omega, by omega⟩

theorem mask_last (y : Fin 128) : (if y.val = 127 then (0 : EReal) else 1) = mask y 2 := by
  unfold mask
  by_cases h : y.val = 127
  · rw [if_pos h, if_neg]; intro hh; have := hh.2; omega
  · rw [if_neg h, if_pos]; have := y.isLt; exact ⟨by omega, by omega⟩

/-- The mask "row is not the first". -/
theorem rowmask_first (y : Fin 128) : k0_pay6 (F := Ideal) (ix2 y (0 : Fin 1)) = mask y 0 := by
  show (sitofp .f32 (extui 32 (cmpi .ne (iota .tc S128x1 32 [0] iota_S128x1_d0_w32) (broadcast S128x1 0#32)) natLt_1_32)
    : FVec Ideal S128x1 .f32) (ix2 y (0 : Fin 1)) = _
  rw [sitofp_extui_eq_uitofp]
  show ((((IntOp.cmpi .ne (iota .tc S128x1 32 [0] iota_S128x1_d0_w32 (ix2 y (0 : Fin 1))) (BitVec.ofNat 32 0)).toNat : ℝ)) : EReal) = _
  rw [iota_single_apply]
  exact (word_ne _ _ y.isLt (by omega)).trans (mask_first y)

/-- The mask "row is not the last". -/
theorem rowmask_last (y : Fin 128) : k0_pay7 (F := Ideal) (ix2 y (0 : Fin 1)) = mask y 2 := by
  show (sitofp .f32 (extui 32 (cmpi .ne (iota .tc S128x1 32 [0] iota_S128x1_d0_w32) (broadcast S128x1 127#32)) natLt_1_32)
    : FVec Ideal S128x1 .f32) (ix2 y (0 : Fin 1)) = _
  rw [sitofp_extui_eq_uitofp]
  show ((((IntOp.cmpi .ne (iota .tc S128x1 32 [0] iota_S128x1_d0_w32 (ix2 y (0 : Fin 1))) (BitVec.ofNat 32 127)).toNat : ℝ)) : EReal) = _
  rw [iota_single_apply]
  exact (word_ne _ _ y.isLt (by omega)).trans (mask_last y)

/-- The mask "column is not the first". -/
theorem colmask_first (x : Fin 128) : k0_pay8 (F := Ideal) (ix2 (0 : Fin 1) x) = mask x 0 := by
  show (sitofp .f32 (extui 32 (cmpi .ne (iota .tc S1x128 32 [1] iota_S1x128_d1_w32) (broadcast S1x128 0#32)) natLt_1_32)
    : FVec Ideal S1x128 .f32) (ix2 (0 : Fin 1) x) = _
  rw [sitofp_extui_eq_uitofp]
  show ((((IntOp.cmpi .ne (iota .tc S1x128 32 [1] iota_S1x128_d1_w32 (ix2 (0 : Fin 1) x)) (BitVec.ofNat 32 0)).toNat : ℝ)) : EReal) = _
  rw [iota_single_apply]
  exact (word_ne _ _ x.isLt (by omega)).trans (mask_first x)

/-- The mask "column is not the last". -/
theorem colmask_last (x : Fin 128) : k0_pay9 (F := Ideal) (ix2 (0 : Fin 1) x) = mask x 2 := by
  show (sitofp .f32 (extui 32 (cmpi .ne (iota .tc S1x128 32 [1] iota_S1x128_d1_w32) (broadcast S1x128 127#32)) natLt_1_32)
    : FVec Ideal S1x128 .f32) (ix2 (0 : Fin 1) x) = _
  rw [sitofp_extui_eq_uitofp]
  show ((((IntOp.cmpi .ne (iota .tc S1x128 32 [1] iota_S1x128_d1_w32 (ix2 (0 : Fin 1) x)) (BitVec.ofNat 32 127)).toNat : ℝ)) : EReal) = _
  rw [iota_single_apply]
  exact (word_ne _ _ x.isLt (by omega)).trans (mask_last x)

/-! ## The nine masked weight planes -/

/-- Weight plane 0, masked. -/
theorem plane0 (v18 : Vec Ideal S1x9x128x128 .f32) (y x : Fin 128) :
    (k0_pay11 (F := Ideal) v18) (ix3 (0 : Fin 1) y x) = v18 (ix4 (0 : Fin 1) (0 : Fin 9) y x) * mask y 0 * mask x 0 := by
  unfold k0_pay11 k0_pay10
  dsimp only
  simp only [mulf_apply]
  rw [plane_read 0 (by omega), stack_read, col_read, rowmask_first, row_read, colmask_first]
  rfl

/-- Weight plane 1, masked. -/
theorem plane1 (v18 : Vec Ideal S1x9x128x128 .f32) (y x : Fin 128) :
    (k0_pay12 (F := Ideal) v18) (ix3 (0 : Fin 1) y x) = v18 (ix4 (0 : Fin 1) (1 : Fin 9) y x) * mask y 0 := by
  unfold k0_pay12 k0_pay10
  dsimp only
  simp only [mulf_apply]
  rw [plane_read 1 (by omega), stack_read, col_read, rowmask_first]
  rfl

/-- Weight plane 2, masked. -/
theorem plane2 (v18 : Vec Ideal S1x9x128x128 .f32) (y x : Fin 128) :
    (k0_pay13 (F := Ideal) v18) (ix3 (0 : Fin 1) y x) = v18 (ix4 (0 : Fin 1) (2 : Fin 9) y x) * mask y 0 * mask x 2 := by
  unfold k0_pay13 k0_pay10
  dsimp only
  simp only [mulf_apply]
  rw [plane_read 2 (by omega), stack_read, col_read, rowmask_first, row_read, colmask_last]
  rfl

/-- Weight plane 3, masked. -/
theorem plane3 (v18 : Vec Ideal S1x9x128x128 .f32) (y x : Fin 128) :
    (k0_pay14 (F := Ideal) v18) (ix3 (0 : Fin 1) y x) = v18 (ix4 (0 : Fin 1) (3 : Fin 9) y x) * mask x 0 := by
  unfold k0_pay14 k0_pay10
  dsimp only
  simp only [mulf_apply]
  rw [plane_read 3 (by omega), stack_read, row_read, colmask_first]
  rfl

/-- Weight plane 4. -/
theorem plane4 (v18 : Vec Ideal S1x9x128x128 .f32) (y x : Fin 128) :
    (k0_pay15 (F := Ideal) v18) (ix3 (0 : Fin 1) y x) = v18 (ix4 (0 : Fin 1) (4 : Fin 9) y x) := by
  unfold k0_pay15 k0_pay10
  dsimp only
  rw [plane_read 4 (by omega), stack_read]
  rfl

/-- Weight plane 5, masked. -/
theorem plane5 (v18 : Vec Ideal S1x9x128x128 .f32) (y x : Fin 128) :
    (k0_pay16 (F := Ideal) v18) (ix3 (0 : Fin 1) y x) = v18 (ix4 (0 : Fin 1) (5 : Fin 9) y x) * mask x 2 := by
  unfold k0_pay16 k0_pay10
  dsimp only
  simp only [mulf_apply]
  rw [plane_read 5 (by omega), stack_read, row_read, colmask_last]
  rfl

/-- Weight plane 6, masked. -/
theorem plane6 (v18 : Vec Ideal S1x9x128x128 .f32) (y x : Fin 128) :
    (k0_pay1 (F := Ideal) k0_pay8 (k0_pay17 v18)) (ix3 (0 : Fin 1) y x) = v18 (ix4 (0 : Fin 1) (6 : Fin 9) y x) * mask y 2 * mask x 0 := by
  unfold k0_pay1 k0_pay17 k0_pay10
  dsimp only
  simp only [mulf_apply]
  rw [plane_read 6 (by omega), stack_read, col_read, rowmask_last, row_read, colmask_first]
  rfl

/-- Weight plane 7, masked. -/
theorem plane7 (v18 : Vec Ideal S1x9x128x128 .f32) (y x : Fin 128) :
    (k0_pay2 (F := Ideal) k0_pay7 (k0_pay10 v18)) (ix3 (0 : Fin 1) y x) = v18 (ix4 (0 : Fin 1) (7 : Fin 9) y x) * mask y 2 := by
  unfold k0_pay2 k0_pay10
  dsimp only
  simp only [mulf_apply]
  rw [plane_read 7 (by omega), stack_read, col_read, rowmask_last]
  rfl

/-- Weight plane 8, masked. -/
theorem plane8 (v18 : Vec Ideal S1x9x128x128 .f32) (y x : Fin 128) :
    (k0_pay3 (F := Ideal) k0_pay7 k0_pay9 (k0_pay10 v18)) (ix3 (0 : Fin 1) y x) = v18 (ix4 (0 : Fin 1) (8 : Fin 9) y x) * mask y 2 * mask x 2 := by
  unfold k0_pay3 k0_pay10
  dsimp only
  simp only [mulf_apply]
  rw [plane_read 8 (by omega), stack_read, col_read, rowmask_last, row_read, colmask_last]
  rfl

end Cert.Window.Kern

end
-- ==== Proof.KernPiece.lean ====
/-
  One trip of the kernel's loop: the chunk of sixteen channels it stores, at channel `c`, row `y`, column `x`, is the
  window sum of the block's nine weight planes over the loaded chunk's plane `c`. The accumulator adds, from zero and
  in the window's order, each masked weight plane times the chunk rotated by one row and one column towards the tap;
  a rotation reads around the edge exactly where the mask is zero, so each term is the weight times the plane continued
  by zero.
-/
import proofs.«176277_j89773406421553_2_alg».proof.Proof.Spec
import proofs.«176277_j89773406421553_2_alg».proof.Proof.KernLayout
import proofs.«176277_j89773406421553_2_alg».proof.Proof.KernPlanes
import Idealize.ShloMosaic.PureOps.Ideal.Laws

noncomputable section

namespace Cert.Window.Kern

open Idealize.ShloMosaic Idealize.ShloMosaic.ValueIdx Cert.KernelIdeal Cert.KernelIdeal.Gen Cert.Window

/-- The accumulator over ANY nine planes, read at an index: nine products added from zero, the chunk read at the
    neighbouring row and column, around the edge. -/
theorem acc_read (p0 p1 p2 p3 p4 p5 p6 p7 p8 : FVec Ideal S1x128x128 .f32) (v71 : Vec Ideal S1x16x128x128 .f32)
    (c : Fin 16) (y x : Fin 128) :
    k0_pay5 (F := Ideal) p0 p1 p2 p3 p4 p5 p6 p7 p8 v71 (ix3 c y x)
      = 0 + p0 (ix3 (0 : Fin 1) y x) * v71 (ix4 (0 : Fin 1) c (prev y) (prev x))
          + p1 (ix3 (0 : Fin 1) y x) * v71 (ix4 (0 : Fin 1) c (prev y) x)
          + p2 (ix3 (0 : Fin 1) y x) * v71 (ix4 (0 : Fin 1) c (prev y) (next x))
          + p3 (ix3 (0 : Fin 1) y x) * v71 (ix4 (0 : Fin 1) c y (prev x))
          + p4 (ix3 (0 : Fin 1) y x) * v71 (ix4 (0 : Fin 1) c y x)
          + p5 (ix3 (0 : Fin 1) y x) * v71 (ix4 (0 : Fin 1) c y (next x))
          + p6 (ix3 (0 : Fin 1) y x) * v71 (ix4 (0 : Fin 1) c (next y) (prev x))
          + p7 (ix3 (0 : Fin 1) y x) * v71 (ix4 (0 : Fin 1) c (next y) x)
          + p8 (ix3 (0 : Fin 1) y x) * v71 (ix4 (0 : Fin 1) c (next y) (next x)) := by
  unfold k0_pay5
  dsimp only
  simp only [addf_apply, mulf_apply, broadcast_apply, chan_read]
  rw [rotCol_prev, rotCol_prev, rotCol_prev, rotCol_next, rotCol_next, rotCol_next,
    rotRow_prev, rotRow_prev, rotRow_prev, rotRow_next, rotRow_next, rotRow_next]
  simp only [chunk_read]
  rw [show (Scalar.ofBits .f32 0x00000000#32 : Ideal .f32) = 0 from Ideal.ofBits_zero_f32]

theorem prev_of_inside (y : Fin 128) (h : inside y 0) : (prev y).val = y.val + 0 - 1 := by
  have := h.1; have := y.isLt; rw [prev_val]; omega
theorem next_of_inside (y : Fin 128) (h : inside y 2) : (next y).val = y.val + 2 - 1 := by
  have := h.2; rw [next_val]; omega

/-- The chunk a trip stores, at an index, is the window sum. -/
theorem chunk_eq (v18 : Vec Ideal S1x9x128x128 .f32) (v71 : Vec Ideal S1x16x128x128 .f32) (c : Fin 16) (y x : Fin 128) :
    k0_pay4 (F := Ideal) (k0_pay5 (k0_pay11 v18) (k0_pay12 v18) (k0_pay13 v18) (k0_pay14 v18) (k0_pay15 v18) (k0_pay16 v18)
        (k0_pay1 k0_pay8 (k0_pay17 v18)) (k0_pay2 k0_pay7 (k0_pay10 v18)) (k0_pay3 k0_pay7 k0_pay9 (k0_pay10 v18)) v71)
      (ix4 (0 : Fin 1) c y x)
    = win (fun k y x => v18 (ix4 (0 : Fin 1) k y x)) (fun y x => v71 (ix4 (0 : Fin 1) c y x)) y x := by
  unfold k0_pay4
  rw [store_read, acc_read, plane0, plane1, plane2, plane3, plane4, plane5, plane6, plane7, plane8]
  rw [term_rc (v18 (ix4 (0 : Fin 1) (0 : Fin 9) y x)) (fun y x => v71 (ix4 (0 : Fin 1) c y x)) y x 0 0 (prev y) (prev x)
        (prev_of_inside y) (prev_of_inside x),
    term_r (v18 (ix4 (0 : Fin 1) (1 : Fin 9) y x)) (fun y x => v71 (ix4 (0 : Fin 1) c y x)) y x 0 (prev y) (prev_of_inside y),
    term_rc (v18 (ix4 (0 : Fin 1) (2 : Fin 9) y x)) (fun y x => v71 (ix4 (0 : Fin 1) c y x)) y x 0 2 (prev y) (next x)
        (prev_of_inside y) (next_of_inside x),
    term_c (v18 (ix4 (0 : Fin 1) (3 : Fin 9) y x)) (fun y x => v71 (ix4 (0 : Fin 1) c y x)) y x 0 (prev x) (prev_of_inside x),
    term_0 (v18 (ix4 (0 : Fin 1) (4 : Fin 9) y x)) (fun y x => v71 (ix4 (0 : Fin 1) c y x)) y x,
    term_c (v18 (ix4 (0 : Fin 1) (5 : Fin 9) y x)) (fun y x => v71 (ix4 (0 : Fin 1) c y x)) y x 2 (next x) (next_of_inside x),
    term_rc (v18 (ix4 (0 : Fin 1) (6 : Fin 9) y x)) (fun y x => v71 (ix4 (0 : Fin 1) c y x)) y x 2 0 (next y) (prev x)
        (next_of_inside y) (prev_of_inside x),
    term_r (v18 (ix4 (0 : Fin 1) (7 : Fin 9) y x)) (fun y x => v71 (ix4 (0 : Fin 1) c y x)) y x 2 (next y) (next_of_inside y),
    term_rc (v18 (ix4 (0 : Fin 1) (8 : Fin 9) y x)) (fun y x => v71 (ix4 (0 : Fin 1) c y x)) y x 2 2 (next y) (next x)
        (next_of_inside y) (next_of_inside x)]
  rfl

end Cert.Window.Kern

end
-- ==== Proof.KernBlock.lean ====
/-
  What one grid point leaves in the output's block. The loop's four trips each store one chunk of sixteen channels,
  trip `k` at channels `16 k … 16 k + 15`, and each chunk is, index by index, the window sum of the block's nine
  weight planes over the input block's plane of the same channel: the four pieces are restrictions of ONE function of
  the block's index (`blockFn`), and together they cover the block, so the block holds that function.
-/
import proofs.«176277_j89773406421553_2_alg».proof.Proof.KernPiece
import proofs.«176277_j89773406421553_2_alg».proof.Proof.Gen.KernelIdeal.Value

set_option maxRecDepth 16384

noncomputable section

namespace Cert.Window.Kern

open Idealize.ShloMosaic Idealize.ShloMosaic.ValueIdx Idealize.ShloMosaic.Tactic Cert.KernelIdeal Cert.KernelIdeal.Gen Cert.Window
open Idealize.SL Idealize.SL.Sem

/-- The block after the body: at channel `c`, row `y`, column `x` the window sum of the weight block's planes over the
    input block's plane `c`. -/
def blockFn (x0 : Vec Ideal S1x9x128x128 .f32) (x1 : Vec Ideal S1x64x128x128 .f32) : S1x64x128x128.Idx → EReal :=
  fun i => win (fun k y x => x0 (ix4 (0 : Fin 1) k y x)) (fun y x => x1 (ix4 (0 : Fin 1) (i 1) y x)) (i 2) (i 3)

theorem trips_le : k0_t1_loop.trips ≤ 4 := k0_t1_abs.2.1

/-- Trip `k`'s rectangle puts its channel `c'` at the block's channel `16 k + c'`, rows and columns in place. -/
theorem emb_chunk (k : Fin k0_t1_loop.trips) (inb : ∀ a, (k0_off1 k) a + S1x16x128x128.size a ≤ S1x64x128x128.size a)
    (c' : Fin 16) (y x : Fin 128) :
    (Rect.unit (s := S1x64x128x128) (k0_off1 k) S1x16x128x128.size inb).emb (ix4 (0 : Fin 1) c' y x)
      = ix4 (0 : Fin 1) (⟨16 * k.val + c'.val, by have := k.isLt; have := trips_le; have := c'.isLt; omega⟩ : Fin 64) y x := by
  funext a
  apply Fin.ext
  rw [Rect.emb_apply]
  match a with
  | ⟨0, _⟩ => show k0_off1 k 0 + 1 * 0 = 0; rw [k0_off1_eq]; rfl
  | ⟨1, _⟩ => show k0_off1 k 1 + 1 * c'.val = 16 * k.val + c'.val; rw [k0_off1_eq]; show 16 * k.val + 1 * c'.val = _; omega
  | ⟨2, _⟩ => show k0_off1 k 2 + 1 * y.val = y.val; rw [k0_off1_eq]; show 0 + 1 * y.val = _; omega
  | ⟨3, _⟩ => show k0_off1 k 3 + 1 * x.val = x.val; rw [k0_off1_eq]; show 0 + 1 * x.val = _; omega

/-- The chunk trip `k` stores agrees with the block function under its rectangle. -/
theorem piece_agrees (v18 : Vec Ideal S1x9x128x128 .f32) (x1 : Vec Ideal S1x64x128x128 .f32) (k : Fin k0_t1_loop.trips)
    (inb : ∀ a, (k0_off1 k) a + S1x16x128x128.size a ≤ S1x64x128x128.size a) (x' : S1x16x128x128.Idx) :
    k0_pay4 (F := Ideal) (k0_pay5 (k0_pay11 v18) (k0_pay12 v18) (k0_pay13 v18) (k0_pay14 v18) (k0_pay15 v18) (k0_pay16 v18)
        (k0_pay1 k0_pay8 (k0_pay17 v18)) (k0_pay2 k0_pay7 (k0_pay10 v18)) (k0_pay3 k0_pay7 k0_pay9 (k0_pay10 v18))
        (View.ld x1 (Rect.unit (s := S1x64x128x128) (k0_off1 k) S1x16x128x128.size inb))) x'
      = blockFn v18 x1 ((Rect.unit (s := S1x64x128x128) (k0_off1 k) S1x16x128x128.size inb).emb x') := by
  obtain ⟨z, c', y, x, rfl⟩ : ∃ (z : Fin 1) (c' : Fin 16) (y x : Fin 128), x' = ix4 z c' y x :=
    ⟨x' 0, x' 1, x' 2, x' 3, eq_ix4 x'⟩
  obtain rfl : z = 0 := Subsingleton.elim _ _
  rw [chunk_eq, emb_chunk]
  unfold blockFn
  show win _ (fun y2 x2 => x1 ((Rect.unit (s := S1x64x128x128) (k0_off1 k) S1x16x128x128.size inb).emb (ix4 (0 : Fin 1) c' y2 x2))) y x
    = win _ (fun y2 x2 => x1 (ix4 (0 : Fin 1) (⟨16 * k.val + c'.val, by have := k.isLt; have := trips_le; have := c'.isLt; omega⟩ : Fin 64) y2 x2)) y x
  exact congrArg (fun v => win _ v y x) (funext fun y2 => funext fun x2 => congrArg x1 (emb_chunk k inb c' y2 x2))

/-- Every piece of trip `k` agrees with the block function. -/
theorem trip_agrees (𝒱 : Variants) (c : Dev nD) (bd : Option 𝒱.V) (i : grid0.Coords) (arg1 : Memref sig .tc .vmem S1x9x128x128 .f32) (harg1 : arg1.IsWhole) (arg2 : Memref sig .tc .vmem S1x64x128x128 .f32) (harg2 : arg2.IsWhole) (arg3 : Memref sig .tc .vmem S1x64x128x128 .f32) (harg3 : arg3.IsWhole)
    (v18 : Vec Ideal S1x9x128x128 .f32) (x1 : Vec Ideal S1x64x128x128 .f32) (k : Fin k0_t1_loop.trips) :
    ∀ p ∈ tripL_k0_t1 (F := Ideal) 𝒱 c bd i arg1 harg1 arg2 harg2 arg3 harg3 k0_pay7 k0_pay8 k0_pay9 (k0_pay10 v18) (k0_pay11 v18) (k0_pay12 v18) (k0_pay13 v18) (k0_pay14 v18) (k0_pay15 v18) (k0_pay16 v18) (k0_pay17 v18) (harg2.unread x1) k,
      ∀ x' : p.1.shape.Idx, p.2 x' = blockFn v18 x1 (p.1.emb x') := by
  intro p hp
  unfold tripL_k0_t1 trip_k0_t1 at hp
  dsimp only at hp
  rw [List.mem_singleton] at hp
  subst hp
  intro x'
  dsimp only
  sl_unfold_run_names
  rw [View.readAt_eq_ld, harg2.read_unread]
  exact piece_agrees v18 x1 k _ x'

/-- Every piece of the trips before `n` agrees with the block function. -/
theorem pb_agrees (𝒱 : Variants) (c : Dev nD) (bd : Option 𝒱.V) (i : grid0.Coords) (arg1 : Memref sig .tc .vmem S1x9x128x128 .f32) (harg1 : arg1.IsWhole) (arg2 : Memref sig .tc .vmem S1x64x128x128 .f32) (harg2 : arg2.IsWhole) (arg3 : Memref sig .tc .vmem S1x64x128x128 .f32) (harg3 : arg3.IsWhole)
    (v18 : Vec Ideal S1x9x128x128 .f32) (x1 : Vec Ideal S1x64x128x128 .f32) :
    ∀ n : ℕ, ∀ p ∈ pb_k0_t1 (F := Ideal) 𝒱 c bd i arg1 harg1 arg2 harg2 arg3 harg3 k0_pay7 k0_pay8 k0_pay9 (k0_pay10 v18) (k0_pay11 v18) (k0_pay12 v18) (k0_pay13 v18) (k0_pay14 v18) (k0_pay15 v18) (k0_pay16 v18) (k0_pay17 v18) (harg2.unread x1) n,
      ∀ x' : p.1.shape.Idx, p.2 x' = blockFn v18 x1 (p.1.emb x')
  | 0 => by
    intro p hp
    rw [pb_k0_t1.eq_1] at hp
    exact absurd hp List.not_mem_nil
  | n + 1 => by
    intro p hp
    rw [pb_k0_t1.eq_2] at hp
    unfold pb_k0_t1Step at hp
    split at hp
    · rcases List.mem_append.mp hp with h | h
      · exact trip_agrees 𝒱 c bd i arg1 harg1 arg2 harg2 arg3 harg3 v18 x1 ⟨n, by assumption⟩ p h
      · exact pb_agrees 𝒱 c bd i arg1 harg1 arg2 harg2 arg3 harg3 v18 x1 n p h
    · exact pb_agrees 𝒱 c bd i arg1 harg1 arg2 harg2 arg3 harg3 v18 x1 n p hp

/-- THE BLOCK: what the body leaves in the output's staging buffer is the block function of the two input blocks. -/
theorem block_eq (c : Dev nD) (i : grid0.Coords) (arg1 : Memref sig .tc .vmem S1x9x128x128 .f32) (harg1 : arg1.IsWhole) (arg2 : Memref sig .tc .vmem S1x64x128x128 .f32) (harg2 : arg2.IsWhole) (arg3 : Memref sig .tc .vmem S1x64x128x128 .f32) (harg3 : arg3.IsWhole)
    (x0 : Vec Ideal S1x9x128x128 .f32) (x1 : Vec Ideal S1x64x128x128 .f32) (y : S1x64x128x128.Idx) :
    out0_A_2 (F := Ideal) c i arg1 harg1 arg2 harg2 arg3 harg3 x0 x1 y = blockFn x0 x1 y := by
  unfold out0_A_2
  refine View.read_writes_apply_of_pieces VO0_2 _ (blockFn x0 x1) _ ?_ y (cover0_A_2 c i arg1 harg1 arg2 harg2 arg3 harg3 x0 x1 y)
  unfold kernelRun0_A
  dsimp only
  sl_unfold_run_names
  have hz : (![0, 0, 0, 0] : Fin 4 → ℕ) = fun _ => 0 := funext fun a => by fin_cases a <;> rfl
  simp only [View.readAt_eq_ld, harg1.read_unread]
  rw [View.ld_unit_zero (S := S1x9x128x128) hz]
  exact pb_agrees Variants.none c none i arg1 harg1 arg2 harg2 arg3 harg3 x0 x1 _

end Cert.Window.Kern

end
-- ==== Proof.SpecArray.lean ====
/-
  The whole result as one function of the two argument arrays: at batch `b`, channel `c`, row `y`, column `x` the
  window sum of batch `b`'s nine weight planes over the plane of batch `b`, channel `c`.
-/
import proofs.«176277_j89773406421553_2_alg».proof.Proof.Spec

noncomputable section

namespace Cert.Window

open Idealize.ShloMosaic Idealize.ShloMosaic.ValueIdx

/-- The result array of the windowed aggregation. -/
def arrayFn (D : (⟨4, ![16, 9, 128, 128]⟩ : Shape).Idx → EReal) (V : (⟨4, ![16, 64, 128, 128]⟩ : Shape).Idx → EReal) :
    (⟨4, ![16, 64, 128, 128]⟩ : Shape).Idx → EReal :=
  fun i => win (fun k y x => D (ix4 (i 0 : Fin 16) k y x)) (fun y x => V (ix4 (i 0 : Fin 16) (i 1 : Fin 64) y x))
    (i 2 : Fin 128) (i 3 : Fin 128)

theorem arrayFn_ix4 (D : (⟨4, ![16, 9, 128, 128]⟩ : Shape).Idx → EReal) (V : (⟨4, ![16, 64, 128, 128]⟩ : Shape).Idx → EReal)
    (b : Fin 16) (c : Fin 64) (y x : Fin 128) :
    arrayFn D V (ix4 b c y x) = win (fun k y x => D (ix4 b k y x)) (fun y x => V (ix4 b c y x)) y x := rfl

end Cert.Window

end
-- ==== Proof.KernArray.lean ====
/-
  From blocks to the array. Grid point `t` handles batch `t`: each of the three windows takes, at point `t`, the block
  of its array whose batch is `t` and whose other coordinates are whole. So what point `t` writes back — the block
  function of the two input blocks — is block `t` of the result array `arrayFn` of the two argument arrays, the sixteen
  blocks cover the array, and the array the run leaves is `arrayFn`.
-/
import proofs.«176277_j89773406421553_2_alg».proof.Proof.KernBlock
import proofs.«176277_j89773406421553_2_alg».proof.Proof.SpecArray

set_option maxRecDepth 16384

noncomputable section

namespace Cert.Window.Kern

open Idealize.ShloMosaic Idealize.ShloMosaic.ValueIdx Idealize.ShloMosaic.TcCoe Cert.KernelIdeal Cert.KernelIdeal.Gen Cert.Window
open Idealize.SL Idealize.SL.Sem
open Idealize.ShloMosaic.Pipeline (Dat)

variable (m : (ℓ : Loc nD τ sig) → Buf (Elt Ideal) ℓ) (ρ : Dev nD → PrngReg)

theorem N_eq : cfg0.N = 16 := N_0

/-- The batch a grid point handles. -/
def batch (t : Fin cfg0.N) : Fin 16 := ⟨t.val, by have h := t.isLt; have e := N_eq; omega⟩

/-- The printed index maps, decided over the grid: at point `t` every window's block index is `(t, 0, 0, 0)`. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)

/-- Where the weight window's block at point `t` puts plane `k`, row `y`, column `x`. -/
theorem emb_blk0 (t : Fin cfg0.N) (k : Fin 9) (y x : Fin 128) :
    ((cfg0.win 0).blk t).view.emb (ix4 (0 : Fin 1) k y x) = ix4 (batch t) k y x := by
  obtain ⟨e0, e1, e2, e3, -⟩ := idx_facts t
  funext a; apply Fin.ext
  match a with
  | ⟨0, _⟩ => show win0_0.index t (0 : Fin 4) * 1 + 1 * 0 = t.val; omega
  | ⟨1, _⟩ => show win0_0.index t (1 : Fin 4) * 9 + 1 * k.val = k.val; omega
  | ⟨2, _⟩ => show win0_0.index t (2 : Fin 4) * 128 + 1 * y.val = y.val; omega
  | ⟨3, _⟩ => show win0_0.index t (3 : Fin 4) * 128 + 1 * x.val = x.val; omega

/-- Where the input window's block at point `t` puts channel `c'`, row `y`, column `x`. -/
theorem emb_blk1 (t : Fin cfg0.N) (c' : Fin 64) (y x : Fin 128) :
    ((cfg0.win 1).blk t).view.emb (ix4 (0 : Fin 1) c' y x) = ix4 (batch t) c' y x := by
  obtain ⟨-, -, -, -, e0, e1, e2, e3, -⟩ := idx_facts t
  funext a; apply Fin.ext
  match a with
  | ⟨0, _⟩ => show win0_1.index t (0 : Fin 4) * 1 + 1 * 0 = t.val; omega
  | ⟨1, _⟩ => show win0_1.index t (1 : Fin 4) * 64 + 1 * c'.val = c'.val; omega
  | ⟨2, _⟩ => show win0_1.index t (2 : Fin 4) * 128 + 1 * y.val = y.val; omega
  | ⟨3, _⟩ => show win0_1.index t (3 : Fin 4) * 128 + 1 * x.val = x.val; omega

/-- Where the output window's block at point `t` puts channel `c'`, row `y`, column `x`. -/
theorem emb_blk2 (t : Fin cfg0.N) (c' : Fin 64) (y x : Fin 128) :
    ((cfg0.win 2).blk t).view.emb (ix4 (0 : Fin 1) c' y x) = ix4 (batch t) c' y x := by
  obtain ⟨-, -, -, -, -, -, -, -, e0, e1, e2, e3⟩ := idx_facts t
  funext a; apply Fin.ext
  match a with
  | ⟨0, _⟩ => show win0_2.index t (0 : Fin 4) * 1 + 1 * 0 = t.val; omega
  | ⟨1, _⟩ => show win0_2.index t (1 : Fin 4) * 64 + 1 * c'.val = c'.val; omega
  | ⟨2, _⟩ => show win0_2.index t (2 : Fin 4) * 128 + 1 * y.val = y.val; omega
  | ⟨3, _⟩ => show win0_2.index t (3 : Fin 4) * 128 + 1 * x.val = x.val; omega

/-- WHAT POINT `t` WRITES BACK is block `t` of the result array of the two argument arrays. -/
theorem flushed_eq (c : Dev nD) (t : Fin cfg0.N) :
    (dats m 0 c).flushed 2 t
      = ((cfg0.win 2).blk t).view.read (Elt Ideal)
          (arrayFn (m ((c : Thread nD τ).loc main_arg0)) (m ((c : Thread nD τ).loc main_arg1))) := by
  rw [Cert.KernelIdeal.Value.flushed2]
  unfold outsAt0
  funext j
  show out0_A_2 c (grid0.coords t) (ms0_0 t) (hs0_0 t) (ms0_1 t) (hs0_1 t) (ms0_2 t) (hs0_2 t) (iblk m c 0 t) (iblk m c 1 t) j
    = arrayFn (m ((c : Thread nD τ).loc main_arg0)) (m ((c : Thread nD τ).loc main_arg1)) (((cfg0.win 2).blk t).view.emb j)
  rw [block_eq]
  obtain ⟨z, c', y, x, rfl⟩ : ∃ (z : Fin 1) (c' : Fin 64) (y x : Fin 128), j = ix4 z c' y x :=
    ⟨j 0, j 1, j 2, j 3, eq_ix4 j⟩
  obtain rfl : z = 0 := Subsingleton.elim _ _
  rw [emb_blk2, arrayFn_ix4]
  unfold blockFn
  exact congrArg₂ (fun d v => win d v y x)
    (funext fun k => funext fun y2 => funext fun x2 =>
      congrArg (m ((c : Thread nD τ).loc main_arg0)) (emb_blk0 t k y2 x2))
    (funext fun y2 => funext fun x2 =>
      congrArg (m ((c : Thread nD τ).loc main_arg1)) (emb_blk1 t c' y2 x2))

/-- An index of the array is in point `t`'s block iff each coordinate is in the block's range on its axis. -/
theorem mem_blk (t : Fin cfg0.N) (i : S16x64x128x128.Idx) :
    i ∈ ((cfg0.win 2).blk t).view.set ↔ ∀ a : Fin 4, win0_2.index t a * S1x64x128x128.size a ≤ (i a).val
      ∧ (i a).val < win0_2.index t a * S1x64x128x128.size a + S1x64x128x128.size a := by
  show i ∈ ((View.whole main_v0).slice (win0_2.rect t)).set ↔ _
  rw [View.set_slice_whole, Rect.mem_set_unit]
  exact Iff.rfl

/-- Every index of the result array is in the block of the point of its batch. -/
theorem cover (i : S16x64x128x128.Idx) :
    ∃ t : Fin cfg0.N, (cfg0.win 2).flush t = true ∧ i ∈ ((cfg0.win 2).blk t).view.set := by
  have hi0 : (i 0).val < 16 := (i 0).isLt
  have hi1 : (i 1).val < 64 := (i 1).isLt
  have hi2 : (i 2).val < 128 := (i 2).isLt
  have hi3 : (i 3).val < 128 := (i 3).isLt
  have hlt : (i 0).val < cfg0.N := by rw [N_eq]; exact hi0
  refine ⟨⟨(i 0).val, hlt⟩, flush0_2 _, ?_⟩
  rw [mem_blk]
  have e := idx_facts ⟨(i 0).val, hlt⟩
  have e0 : win0_2.index ⟨(i 0).val, hlt⟩ (0 : Fin 4) = (i 0).val := e.2.2.2.2.2.2.2.2.1
  have e1 : win0_2.index ⟨(i 0).val, hlt⟩ (1 : Fin 4) = 0 := e.2.2.2.2.2.2.2.2.2.1
  have e2 : win0_2.index ⟨(i 0).val, hlt⟩ (2 : Fin 4) = 0 := e.2.2.2.2.2.2.2.2.2.2.1
  have e3 : win0_2.index ⟨(i 0).val, hlt⟩ (3 : Fin 4) = 0 := e.2.2.2.2.2.2.2.2.2.2.2
  intro a
  match a with
  | ⟨0, _⟩ =>
    show win0_2.index ⟨(i 0).val, hlt⟩ (0 : Fin 4) * 1 ≤ (i 0).val ∧ (i 0).val < win0_2.index ⟨(i 0).val, hlt⟩ (0 : Fin 4) * 1 + 1
    omega
  | ⟨1, _⟩ =>
    show win0_2.index ⟨(i 0).val, hlt⟩ (1 : Fin 4) * 64 ≤ (i 1).val ∧ (i 1).val < win0_2.index ⟨(i 0).val, hlt⟩ (1 : Fin 4) * 64 + 64
    omega
  | ⟨2, _⟩ =>
    show win0_2.index ⟨(i 0).val, hlt⟩ (2 : Fin 4) * 128 ≤ (i 2).val ∧ (i 2).val < win0_2.index ⟨(i 0).val, hlt⟩ (2 : Fin 4) * 128 + 128
    omega
  | ⟨3, _⟩ =>
    show win0_2.index ⟨(i 0).val, hlt⟩ (3 : Fin 4) * 128 ≤ (i 3).val ∧ (i 3).val < win0_2.index ⟨(i 0).val, hlt⟩ (3 : Fin 4) * 128 + 128
    omega

/-- THE ARRAY after the run is the result array of the two argument arrays. -/
theorem final (c : Dev nD) :
    (dats m 0 c).arrAt 2 cfg0.N = arrayFn (m ((c : Thread nD τ).loc main_arg0)) (m ((c : Thread nD τ).loc main_arg1)) :=
  (dats m 0 c).arrAt_eq_of_cover 2 _ (fun t _ => flushed_eq m c t) cover

/-- The kernel's run: every weakly fair execution ends with the result array at `arrayFn` of the arguments as launched,
    the arguments unchanged. -/
theorem run : θ_run defs (onTc (τ := τ) (main (F := Ideal))) ⟨m, fun _ => 0, ρ⟩ fun r => ∀ c : Dev nD,
      r.2.mem ((c : Thread nD τ).loc main_v0)
        = arrayFn (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.Window.Kern

end
-- ==== Proof.RefSide.lean ====
/-
  The reference, read index by index: the padded array at row `i + y`, column `j + x` is the plane continued by
  zero at row `y + i − 1`, column `x + j − 1` (one row and one column of padding in front), and the nine
  multiply-adds are the window sum in its own order.
-/
import proofs.«176277_j89773406421553_2_alg».proof.Proof.Spec
import proofs.«176277_j89773406421553_2_alg».proof.Proof.Gen.ReferenceIdeal.Read
import Idealize.ShloMosaic.Lib.KernelVsHost
import Idealize.ShloMosaic.PureOps.Ideal.Laws

noncomputable section

namespace Cert.Window.Ref

open Idealize.ShloMosaic Idealize.ShloMosaic.ValueIdx Cert.ReferenceIdeal Cert.ReferenceIdeal.Gen Cert.Window

/-- The padding value, the integer zero converted, is the real zero. -/
theorem padval (i : S_.Idx) : Read.val_main_call0_v0 (F := Ideal) i = 0 := by
  show ((((0#32 : BitVec 32).toInt : ℤ) : ℝ) : EReal) = 0
  simp

/-- The padded array read at batch `b`, channel `c`, row `i + y`, column `j + x`. -/
theorem pad_tap (x1 : (⟨S16x64x128x128, .f32⟩ : BufTy).Contents (Elt Ideal)) (b : Fin 16) (c : Fin 64) (y x : Fin 128) (i jj : ℕ)
    (j : S16x64x130x130.Idx) (h0 : (j 0).val = b.val) (h1 : (j 1).val = c.val) (h2 : (j 2).val = i + y.val)
    (h3 : (j 3).val = jj + x.val) :
    Read.val_main_v0 (F := Ideal) x1 j = tap (fun y x => x1 (ix4 b c y x)) y x i jj := by
  unfold Read.val_main_v0
  by_cases h : inside y i ∧ inside x jj
  · have hy1 := h.1.1; have hy2 := h.1.2; have hx1 := h.2.1; have hx2 := h.2.2
    rw [tap_of_inside h ⟨y.val + i - 1, by omega⟩ ⟨x.val + jj - 1, by omega⟩ rfl rfl]
    refine pad_apply_of_inside _ _ _ x1 _ pads_S16x64x128x128_S16x64x130x130_000_000_110_110 h_S_ j
      (ix4 b c ⟨y.val + i - 1, by omega⟩ ⟨x.val + jj - 1, by omega⟩) (fun a => ?_)
    match a with
    | ⟨0, _⟩ => show (j 0).val = 0 + b.val * (0 + 1); omega
    | ⟨1, _⟩ => show (j 1).val = 0 + c.val * (0 + 1); omega
    | ⟨2, _⟩ => show (j 2).val = 1 + (y.val + i - 1) * (0 + 1); omega
    | ⟨3, _⟩ => show (j 3).val = 1 + (x.val + jj - 1) * (0 + 1); omega
  · rw [tap_of_not_inside h]
    by_cases hy : inside y i
    · have hx : ¬inside x jj := fun hx => h ⟨hy, hx⟩
      refine (pad_apply_of_not_inside _ _ _ x1 _ pads_S16x64x128x128_S16x64x130x130_000_000_110_110 h_S_ j 3 (fun hh => hx ?_)).trans (padval _)
      have e1 : 1 ≤ (j 3).val := hh.1
      have e2 : ((j 3).val - 1) / (0 + 1) < 128 := hh.2.2
      rw [Nat.zero_add, Nat.div_one] at e2
      exact ⟨by omega, by omega⟩
    · refine (pad_apply_of_not_inside _ _ _ x1 _ pads_S16x64x128x128_S16x64x130x130_000_000_110_110 h_S_ j 2 (fun hh => hy ?_)).trans (padval _)
      have e1 : 1 ≤ (j 2).val := hh.1
      have e2 : ((j 2).val - 1) / (0 + 1) < 128 := hh.2.2
      rw [Nat.zero_add, Nat.div_one] at e2
      exact ⟨by omega, by omega⟩

/-- The reference's last stage at batch `b`, channel `c`, row `y`, column `x` is the window sum of the nine weight
    planes of batch `b` over the plane of batch `b`, channel `c`. -/
theorem ref_eq (x0 : (⟨S16x9x128x128, .f32⟩ : BufTy).Contents (Elt Ideal)) (x1 : (⟨S16x64x128x128, .f32⟩ : BufTy).Contents (Elt Ideal))
    (b : Fin 16) (c : Fin 64) (y x : Fin 128) :
    Read.val_main_v46 (F := Ideal) x0 x1 (ix4 b c y x)
      = win (fun k y x => x0 (ix4 b k y x)) (fun y x => x1 (ix4 b c y x)) y x := by
  have e0 : Read.val_main_v1 (F := Ideal) (ix4 b c y x) = 0 := by
    rw [Read.val_main_v1_apply, Read.val_main_cst_apply]; exact Ideal.ofBits_zero_f32
  have t0 : Read.val_main_v5 (F := Ideal) x0 x1 (ix4 b c y x)
      = x0 (ix4 b 0 y x) * tap (fun y x => x1 (ix4 b c y x)) y x 0 0 := by
    rw [Read.val_main_v5_apply, Read.val_main_v4_apply, Read.val_main_v2_apply, Read.val_main_v3_apply,
      pad_tap x1 b c y x 0 0 _ rfl rfl (Nat.zero_add _).symm (Nat.zero_add _).symm]
    exact congrArg (· * _) (congrArg x0 (funext fun a => match a with
      | ⟨0, _⟩ => rfl | ⟨1, _⟩ => rfl | ⟨2, _⟩ => rfl | ⟨3, _⟩ => rfl))
  have t1 : Read.val_main_v10 (F := Ideal) x0 x1 (ix4 b c y x)
      = x0 (ix4 b 1 y x) * tap (fun y x => x1 (ix4 b c y x)) y x 0 1 := by
    rw [Read.val_main_v10_apply, Read.val_main_v9_apply, Read.val_main_v7_apply, Read.val_main_v8_apply,
      pad_tap x1 b c y x 0 1 _ rfl rfl (Nat.zero_add _).symm rfl]
    exact congrArg (· * _) (congrArg x0 (funext fun a => match a with
      | ⟨0, _⟩ => rfl | ⟨1, _⟩ => rfl | ⟨2, _⟩ => rfl | ⟨3, _⟩ => rfl))
  have t2 : Read.val_main_v15 (F := Ideal) x0 x1 (ix4 b c y x)
      = x0 (ix4 b 2 y x) * tap (fun y x => x1 (ix4 b c y x)) y x 0 2 := by
    rw [Read.val_main_v15_apply, Read.val_main_v14_apply, Read.val_main_v12_apply, Read.val_main_v13_apply,
      pad_tap x1 b c y x 0 2 _ rfl rfl (Nat.zero_add _).symm rfl]
    exact congrArg (· * _) (congrArg x0 (funext fun a => match a with
      | ⟨0, _⟩ => rfl | ⟨1, _⟩ => rfl | ⟨2, _⟩ => rfl | ⟨3, _⟩ => rfl))
  have t3 : Read.val_main_v20 (F := Ideal) x0 x1 (ix4 b c y x)
      = x0 (ix4 b 3 y x) * tap (fun y x => x1 (ix4 b c y x)) y x 1 0 := by
    rw [Read.val_main_v20_apply, Read.val_main_v19_apply, Read.val_main_v17_apply, Read.val_main_v18_apply,
      pad_tap x1 b c y x 1 0 _ rfl rfl rfl (Nat.zero_add _).symm]
    exact congrArg (· * _) (congrArg x0 (funext fun a => match a with
      | ⟨0, _⟩ => rfl | ⟨1, _⟩ => rfl | ⟨2, _⟩ => rfl | ⟨3, _⟩ => rfl))
  have t4 : Read.val_main_v25 (F := Ideal) x0 x1 (ix4 b c y x)
      = x0 (ix4 b 4 y x) * tap (fun y x => x1 (ix4 b c y x)) y x 1 1 := by
    rw [Read.val_main_v25_apply, Read.val_main_v24_apply, Read.val_main_v22_apply, Read.val_main_v23_apply,
      pad_tap x1 b c y x 1 1 _ rfl rfl rfl rfl]
    exact congrArg (· * _) (congrArg x0 (funext fun a => match a with
      | ⟨0, _⟩ => rfl | ⟨1, _⟩ => rfl | ⟨2, _⟩ => rfl | ⟨3, _⟩ => rfl))
  have t5 : Read.val_main_v30 (F := Ideal) x0 x1 (ix4 b c y x)
      = x0 (ix4 b 5 y x) * tap (fun y x => x1 (ix4 b c y x)) y x 1 2 := by
    rw [Read.val_main_v30_apply, Read.val_main_v29_apply, Read.val_main_v27_apply, Read.val_main_v28_apply,
      pad_tap x1 b c y x 1 2 _ rfl rfl rfl rfl]
    exact congrArg (· * _) (congrArg x0 (funext fun a => match a with
      | ⟨0, _⟩ => rfl | ⟨1, _⟩ => rfl | ⟨2, _⟩ => rfl | ⟨3, _⟩ => rfl))
  have t6 : Read.val_main_v35 (F := Ideal) x0 x1 (ix4 b c y x)
      = x0 (ix4 b 6 y x) * tap (fun y x => x1 (ix4 b c y x)) y x 2 0 := by
    rw [Read.val_main_v35_apply, Read.val_main_v34_apply, Read.val_main_v32_apply, Read.val_main_v33_apply,
      pad_tap x1 b c y x 2 0 _ rfl rfl rfl (Nat.zero_add _).symm]
    exact congrArg (· * _) (congrArg x0 (funext fun a => match a with
      | ⟨0, _⟩ => rfl | ⟨1, _⟩ => rfl | ⟨2, _⟩ => rfl | ⟨3, _⟩ => rfl))
  have t7 : Read.val_main_v40 (F := Ideal) x0 x1 (ix4 b c y x)
      = x0 (ix4 b 7 y x) * tap (fun y x => x1 (ix4 b c y x)) y x 2 1 := by
    rw [Read.val_main_v40_apply, Read.val_main_v39_apply, Read.val_main_v37_apply, Read.val_main_v38_apply,
      pad_tap x1 b c y x 2 1 _ rfl rfl rfl rfl]
    exact congrArg (· * _) (congrArg x0 (funext fun a => match a with
      | ⟨0, _⟩ => rfl | ⟨1, _⟩ => rfl | ⟨2, _⟩ => rfl | ⟨3, _⟩ => rfl))
  have t8 : Read.val_main_v45 (F := Ideal) x0 x1 (ix4 b c y x)
      = x0 (ix4 b 8 y x) * tap (fun y x => x1 (ix4 b c y x)) y x 2 2 := by
    rw [Read.val_main_v45_apply, Read.val_main_v44_apply, Read.val_main_v42_apply, Read.val_main_v43_apply,
      pad_tap x1 b c y x 2 2 _ rfl rfl rfl rfl]
    exact congrArg (· * _) (congrArg x0 (funext fun a => match a with
      | ⟨0, _⟩ => rfl | ⟨1, _⟩ => rfl | ⟨2, _⟩ => rfl | ⟨3, _⟩ => rfl))
  rw [Read.val_main_v46_apply, Read.val_main_v41_apply, Read.val_main_v36_apply, Read.val_main_v31_apply, Read.val_main_v26_apply, Read.val_main_v21_apply, Read.val_main_v16_apply, Read.val_main_v11_apply, Read.val_main_v6_apply]
  rw [e0, t0, t1, t2, t3, t4, t5, t6, t7, t8]
  rfl

end Cert.Window.Ref

end
-- ==== Proof.RefArray.lean ====
/-
  The reference's result as the same function of the two argument arrays: its last stage, index by index, is the
  window sum of the batch's nine weight planes over the plane of the batch and channel.
-/
import proofs.«176277_j89773406421553_2_alg».proof.Proof.RefSide
import proofs.«176277_j89773406421553_2_alg».proof.Proof.SpecArray

noncomputable section

namespace Cert.Window.Ref

open Idealize.ShloMosaic Idealize.ShloMosaic.ValueIdx Cert.ReferenceIdeal Cert.ReferenceIdeal.Gen Cert.Window

/-- The reference's last stage is the result array of its two arguments. -/
theorem ref_array (x0 : (⟨S16x9x128x128, .f32⟩ : BufTy).Contents (Elt Ideal)) (x1 : (⟨S16x64x128x128, .f32⟩ : BufTy).Contents (Elt Ideal)) :
    Read.val_main_v46 (F := Ideal) x0 x1 = arrayFn x0 x1 := by
  funext i
  obtain ⟨b, c, y, x, rfl⟩ : ∃ (b : Fin 16) (c : Fin 64) (y x : Fin 128), i = ix4 b c y x :=
    ⟨i 0, i 1, i 2, i 3, eq_ix4 i⟩
  rw [ref_eq, arrayFn_ix4]

end Cert.Window.Ref

end
-- ==== Proof.lean ====
/-
  A 3 x 3 windowed aggregation: for weights `Dot` of shape [16, 9, 128, 128] and values `V` of shape [16, 64, 128, 128],
      out[b, c, y, x] = ∑_{i, j < 3} Dot[b, 3 i + j, y, x] · V̄[b, c, y + i − 1, x + j − 1],
  `V̄` being `V` continued by zero outside its 128 x 128 planes, the nine terms added from zero in the order of `3 i + j`
  (`Cert.Window.arrayFn`, Proof/SpecArray.lean over Proof/Spec.lean).

  The reference pads `V` by one row and one column of zeros on each side and, for each tap, multiplies a slice of the
  padded array by the tap's weight plane laid over the channels; the padded array read at row `y + i`, column `x + j` is
  `V̄` at row `y + i − 1`, column `x + j − 1` (Proof/RefSide.lean, Proof/RefArray.lean).

  The kernel handles one batch per grid point and, in a loop of four trips, sixteen channels per trip. It never pads: it
  ROTATES the chunk by one row and one column towards the tap, so that the value that should be a zero of the padding
  is a value from the opposite edge, and multiplies the tap's weight plane, beforehand, by a mask that is 0 exactly on
  the rows and columns where that happens and 1 elsewhere. On the extended reals `d · 1 = d` and `d · 0 = 0 = 0 · w` for
  EVERY `d` and `w`, the infinities included, so `(d · mask) · (wrapped value) = d · V̄` term by term, and the two sums add
  the same nine terms from zero in the same order: no law of arithmetic beyond these three is used, and the finiteness
  of the inputs is not needed (Proof/Spec.lean `term_rc`; Proof/KernLayout.lean, Proof/KernPlanes.lean, Proof/KernPiece.lean).
  The four chunks a point stores are restrictions of one function of the block's index and cover the block
  (Proof/KernBlock.lean); the sixteen blocks are the batches of the result array and cover it (Proof/KernArray.lean).

  The three frames are the programs' runs with the results dropped; the idealization rewrote no operation, so there is
  nothing to preserve; and the two runs, from memories that agree on the arguments, end with the same array.
-/
import proofs.«176277_j89773406421553_2_alg».proof.Defs
import proofs.«176277_j89773406421553_2_alg».proof.Proof.Gen.Kernel
import proofs.«176277_j89773406421553_2_alg».proof.Proof.Gen.Kernel.Skeleton
import proofs.«176277_j89773406421553_2_alg».proof.Proof.Gen.Kernel.Loops
import proofs.«176277_j89773406421553_2_alg».proof.Proof.Gen.Kernel.Launch
import proofs.«176277_j89773406421553_2_alg».proof.Proof.Gen.Kernel.Points
import proofs.«176277_j89773406421553_2_alg».proof.Proof.Gen.Kernel.Frame
import proofs.«176277_j89773406421553_2_alg».proof.Proof.Gen.KernelIdeal
import proofs.«176277_j89773406421553_2_alg».proof.Proof.Gen.KernelIdeal.Skeleton
import proofs.«176277_j89773406421553_2_alg».proof.Proof.Gen.KernelIdeal.Loops
import proofs.«176277_j89773406421553_2_alg».proof.Proof.Gen.KernelIdeal.Launch
import proofs.«176277_j89773406421553_2_alg».proof.Proof.Gen.KernelIdeal.Points
import proofs.«176277_j89773406421553_2_alg».proof.Proof.Gen.KernelIdeal.Frame
import proofs.«176277_j89773406421553_2_alg».proof.Proof.Gen.ReferenceIdeal
import proofs.«176277_j89773406421553_2_alg».proof.Proof.Gen.Pre_finite_inputs
import proofs.«176277_j89773406421553_2_alg».proof.Proof.Gen.KernelIdeal.Value
import proofs.«176277_j89773406421553_2_alg».proof.Proof.Gen.ReferenceIdeal.Run
import proofs.«176277_j89773406421553_2_alg».proof.Proof.Gen.ReferenceIdeal.Read
import proofs.«176277_j89773406421553_2_alg».proof.Proof.KernArray
import proofs.«176277_j89773406421553_2_alg».proof.Proof.RefArray
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the windowed aggregation of the argument arrays. -/
theorem algebraic : Cert.algebraic_KernelIdeal_ReferenceIdeal := by
  intro m ρ m' ρ' _ hagree
  refine ⟨_, Cert.Window.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, Cert.Window.Ref.ref_array, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
